-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_v12) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512 : Shape := ⟨2, ![64, 512]⟩
abbrev S4096x512 : Shape := ⟨2, ![4096, 512]⟩
abbrev S4096x4096 : Shape := ⟨2, ![4096, 4096]⟩
abbrev S4096x1 : Shape := ⟨2, ![4096, 1]⟩
abbrev S4096x64 : Shape := ⟨2, ![4096, 64]⟩
abbrev S64x4096 : Shape := ⟨2, ![64, 4096]⟩
abbrev S_ : Shape := ⟨0, ![]⟩

class Facts : Prop where
  bcast_S_S64x512 : S_.BroadcastsInDim S64x512 (![] : Fin 0 → Fin S64x512.rank)
  reducesTo_S64x512_S_d0_1 : S64x512.ReducesTo [0, 1] S_
  h_S_ : 0 < S_.numel
  bcast_S_S4096x512 : S_.BroadcastsInDim S4096x512 (![] : Fin 0 → Fin S4096x512.rank)
  reducesTo_S4096x512_S_d0_1 : S4096x512.ReducesTo [0, 1] S_
  bcast_S_S4096x4096 : S_.BroadcastsInDim S4096x4096 (![] : Fin 0 → Fin S4096x4096.rank)
  reducesTo_S4096x4096_S_d0_1 : S4096x4096.ReducesTo [0, 1] S_
  bcast_S_S4096x1 : S_.BroadcastsInDim S4096x1 (![] : Fin 0 → Fin S4096x1.rank)
  reducesTo_S4096x1_S_d0_1 : S4096x1.ReducesTo [0, 1] S_
  bcast_S_S4096x64 : S_.BroadcastsInDim S4096x64 (![] : Fin 0 → Fin S4096x64.rank)
  reducesTo_S4096x64_S_d0_1 : S4096x64.ReducesTo [0, 1] S_
  bcast_S_S64x4096 : S_.BroadcastsInDim S64x4096 (![] : Fin 0 → Fin S64x4096.rank)
  reducesTo_S64x4096_S_d0_1 : S64x4096.ReducesTo [0, 1] S_

variable [Facts]

def fn_part1 {F : FTy → Type} [FloatOps F] (main_arg4 : FVec F S4096x1 .f32) (main_arg5 : FVec F S4096x64 .f32) (main_arg6 : FVec F S64x4096 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S4096x1 .f32 := Host.absf main_arg4
  let main_cst_6 : FVec F S_ .f32 := constant S_ .f32 0x7F800000#32
  let main_v20 : FVec F S4096x1 .f32 := broadcastInDim S4096x1 ![] bcast_S_S4096x1 main_cst_6
  let main_v21 : IVec S4096x1 1 := cmpf .olt main_v19 main_v20
  let main_c_7 : IVec S_ 1 := constantI S_ 1 1#1
  let main_v22 : IVec S_ 1 := (fun x v => Host.reduce IntOp.andi x v reducesTo_S4096x1_S_d0_1 h_S_) main_v21 main_c_7
  let main_v23 : IVec S_ 1 := andi main_v18 main_v22
  let main_v24 : FVec F S4096x64 .f32 := Host.absf main_arg5
  let main_cst_8 : FVec F S_ .f32 := constant S_ .f32 0x7F800000#32
  let main_v25 : FVec F S4096x64 .f32 := broadcastInDim S4096x64 ![] bcast_S_S4096x64 main_cst_8
  let main_v26 : IVec S4096x64 1 := cmpf .olt main_v24 main_v25
  let main_c_9 : IVec S_ 1 := constantI S_ 1 1#1
  let main_v27 : IVec S_ 1 := (fun x v => Host.reduce IntOp.andi x v reducesTo_S4096x64_S_d0_1 h_S_) main_v26 main_c_9
  let main_v28 : IVec S_ 1 := andi main_v23 main_v27
  let main_v29 : FVec F S64x4096 .f32 := Host.absf main_arg6
  let main_cst_10 : FVec F S_ .f32 := constant S_ .f32 0x7F800000#32
  let main_v30 : FVec F S64x4096 .f32 := broadcastInDim S64x4096 ![] bcast_S_S64x4096 main_cst_10
  let main_v31 : IVec S64x4096 1 := cmpf .olt main_v29 main_v30
  let main_c_11 : IVec S_ 1 := constantI S_ 1 1#1
  let main_v32 : IVec S_ 1 := (fun x v => Host.reduce IntOp.andi x v reducesTo_S64x4096_S_d0_1 h_S_) main_v31 main_c_11
  let main_v33 : IVec S_ 1 := andi main_v28 main_v32
  main_v33

def fn {F : FTy → Type} [FloatOps F] (main_arg0 : FVec F S64x512 .f32) (main_arg1 : FVec F S4096x512 .f32) (main_arg2 : FVec F S4096x512 .f32) (main_arg3 : FVec F S4096x4096 .f32) (main_arg4 : FVec F S4096x1 .f32) (main_arg5 : FVec F S4096x64 .f32) (main_arg6 : FVec F S64x4096 .f32) : IVec S_ 1 :=
  let main_v0 : FVec F S64x512 .f32 := Host.absf main_arg0
  let main_cst : FVec F S_ .f32 := constant S_ .f32 0x7F800000#32
  let main_v1 : FVec F S64x512 .f32 := broadcastInDim S64x512 ![] bcast_S_S64x512 main_cst
  let main_v2 : IVec S64x512 1 := cmpf .olt main_v0 main_v1
  let main_c : IVec S_ 1 := constantI S_ 1 1#1
  let main_v3 : IVec S_ 1 := (fun x v => Host.reduce IntOp.andi x v reducesTo_S64x512_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  let main_v9 : FVec F S4096x512 .f32 := Host.absf main_arg2
  let main_cst_2 : FVec F S_ .f32 := constant S_ .f32 0x7F800000#32
  let main_v10 : FVec F S4096x512 .f32 := broadcastInDim S4096x512 ![] bcast_S_S4096x512 main_cst_2
  let main_v11 : IVec S4096x512 1 := cmpf .olt main_v9 main_v10
  let main_c_3 : IVec S_ 1 := constantI S_ 1 1#1
  let main_v12 : IVec S_ 1 := (fun x v => Host.reduce IntOp.andi x v reducesTo_S4096x512_S_d0_1 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg4 main_arg5 main_arg6 main_v13 main_v16
-- ==== Kernel.lean ====
abbrev S64x512 : Shape := ⟨2, ![64, 512]⟩
abbrev S4096x512 : Shape := ⟨2, ![4096, 512]⟩
abbrev S4096x4096 : Shape := ⟨2, ![4096, 4096]⟩
abbrev S4096x1 : Shape := ⟨2, ![4096, 1]⟩
abbrev S4096x64 : Shape := ⟨2, ![4096, 64]⟩
abbrev S64x4096 : Shape := ⟨2, ![64, 4096]⟩
abbrev S512x512 : Shape := ⟨2, ![512, 512]⟩
abbrev S512x4096 : Shape := ⟨2, ![512, 4096]⟩
abbrev S512x64 : Shape := ⟨2, ![512, 64]⟩
abbrev S512x1 : Shape := ⟨2, ![512, 1]⟩

abbrev nBuf : Space → Nat
  | .hbm => 11
  | .vmem => 19
  | .smem => 0
  | _ => 0

abbrev bufTy : (tb : Table) → Fin (tcTables nBuf tb) → BufTy
  | .hbm, ⟨0, _⟩ => ⟨S64x512, .f32⟩
  | .hbm, ⟨1, _⟩ => ⟨S4096x512, .f32⟩
  | .hbm, ⟨2, _⟩ => ⟨S4096x512, .f32⟩
  | .hbm, ⟨3, _⟩ => ⟨S4096x4096, .f32⟩
  | .hbm, ⟨4, _⟩ => ⟨S4096x1, .f32⟩
  | .hbm, ⟨5, _⟩ => ⟨S4096x64, .f32⟩
  | .hbm, ⟨6, _⟩ => ⟨S64x4096, .f32⟩
  | .hbm, ⟨7, _⟩ => ⟨S64x512, .bf16⟩
  | .hbm, ⟨8, _⟩ => ⟨S4096x512, .bf16⟩
  | .hbm, ⟨9, _⟩ => ⟨S4096x512, .f32⟩
  | .hbm, ⟨10, _⟩ => ⟨S4096x512, .f32⟩
  | .local _ .vmem, ⟨0, _⟩ => ⟨S64x512, .f32⟩
  | .local _ .vmem, ⟨1, _⟩ => ⟨S4096x512, .f32⟩
  | .local _ .vmem, ⟨2, _⟩ => ⟨S64x4096, .f32⟩
  | .local _ .vmem, ⟨3, _⟩ => ⟨S64x512, .bf16⟩
  | .local _ .vmem, ⟨4, _⟩ => ⟨S4096x512, .bf16⟩
  | .local _ .vmem, ⟨5, _⟩ => ⟨S512x512, .f32⟩
  | .local _ .vmem, ⟨6, _⟩ => ⟨S512x512, .f32⟩
  | .local _ .vmem, ⟨7, _⟩ => ⟨S4096x512, .bf16⟩
  | .local _ .vmem, ⟨8, _⟩ => ⟨S512x4096, .f32⟩
  | .local _ .vmem, ⟨9, _⟩ => ⟨S512x4096, .f32⟩
  | .local _ .vmem, ⟨10, _⟩ => ⟨S512x64, .f32⟩
  | .local _ .vmem, ⟨11, _⟩ => ⟨S512x64, .f32⟩
  | .local _ .vmem, ⟨12, _⟩ => ⟨S64x512, .bf16⟩
  | .local _ .vmem, ⟨13, _⟩ => ⟨S512x1, .f32⟩
  | .local _ .vmem, ⟨14, _⟩ => ⟨S512x1, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | _, _ => ⟨S64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v1_0 : Ref sig .tc := ⟨.hbm, 9, rfl⟩
abbrev main_v1_1 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc1_stg6_0 : Ref sig .tc := ⟨.vmem, 15, rfl⟩
abbrev cc1_stg6_1 : Ref sig .tc := ⟨.vmem, 16, rfl⟩
abbrev cc1_stg7_0 : Ref sig .tc := ⟨.vmem, 17, rfl⟩
abbrev cc1_stg7_1 : Ref sig .tc := ⟨.vmem, 18, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem5_0 : DmaSem sig := 13
abbrev cc1_sem5_1 : DmaSem sig := 14
abbrev cc1_sem6_0 : DmaSem sig := 15
abbrev cc1_sem6_1 : DmaSem sig := 16
abbrev cc1_sem7_0 : DmaSem sig := 17
abbrev cc1_sem7_1 : DmaSem sig := 18

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S64x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4096x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S64x512 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S512x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S512x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S512x512 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  inb_S4096x512_S4096x512_0_0 : ∀ a, (![0, 0] : Fin 2 → Nat) a + S4096x512.size a ≤ S4096x512.size a
  h_S4096x512 : 0 < S4096x512.numel
  bitsLt_bf16_f32 : FTy.bits .bf16 < FTy.bits .f32
  inb_S64x4096_S64x4096_0_0 : ∀ a, (![0, 0] : Fin 2 → Nat) a + S64x4096.size a ≤ S64x4096.size a
  h_S64x4096 : 0 < S64x4096.numel
  inb_S64x512_S64x512_0_0 : ∀ a, (![0, 0] : Fin 2 → Nat) a + S64x512.size a ≤ S64x512.size a
  h_S64x512 : 0 < S64x512.numel
  packedbf16_S64x512_S64x512_0_0 : (Rect.unit (s := S64x512) ![0, 0] S64x512.size inb_S64x512_S64x512_0_0).PackedRows (EltTy.packing .bf16)
  packedbf16_S4096x512_S4096x512_0_0 : (Rect.unit (s := S4096x512) ![0, 0] S4096x512.size inb_S4096x512_S4096x512_0_0).PackedRows (EltTy.packing .bf16)
  shapeCasts_S4096x512_S4096x512 : S4096x512.ShapeCasts S4096x512
  inb_S512x4096_S512x4096_0_0 : ∀ a, (![0, 0] : Fin 2 → Nat) a + S512x4096.size a ≤ S512x4096.size a
  h_S512x4096 : 0 < S512x4096.numel
  inb_S512x64_S512x64_0_0 : ∀ a, (![0, 0] : Fin 2 → Nat) a + S512x64.size a ≤ S512x64.size a
  h_S512x64 : 0 < S512x64.numel
  shapeCasts_S64x512_S64x512 : S64x512.ShapeCasts S64x512
  inb_S512x512_S512x512_0_0 : ∀ a, (![0, 0] : Fin 2 → Nat) a + S512x512.size a ≤ S512x512.size a
  h_S512x512 : 0 < S512x512.numel
  inb_S512x1_S512x1_0_0 : ∀ a, (![0, 0] : Fin 2 → Nat) a + S512x1.size a ≤ S512x1.size a
  h_S512x1 : 0 < S512x1.numel
  broadcasts_S512x1_S512x512 : S512x1.Broadcasts S512x512
  dot_S64x4096_S4096x512_S64x512_1_0_0_1_n_n_wf : DotDims.WF S64x4096 S4096x512 S64x512 [1] [0] [0] [1] [] []
  dot_S512x4096_S4096x512_S512x512_1_0_0_1_n_n_wf : DotDims.WF S512x4096 S4096x512 S512x512 [1] [0] [0] [1] [] []
  dot_S512x64_S64x512_S512x512_1_0_0_1_n_n_wf : DotDims.WF S512x64 S64x512 S512x512 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S64x512.size a ≤ S64x512.size a
  hwx0_0 : ∀ i : grid0.Coords, EltTy.bits .f32 = 32 ∨ (Rect.block (s := S64x512) S64x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x512.size a ≤ S4096x512.size a
  hwx0_1 : ∀ i : grid0.Coords, EltTy.bits .f32 = 32 ∨ (Rect.block (s := S4096x512) S4096x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x4096.size a ≤ S64x4096.size a
  hwx0_2 : ∀ i : grid0.Coords, EltTy.bits .f32 = 32 ∨ (Rect.block (s := S64x4096) S64x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x512.size a ≤ S64x512.size a
  hwx0_3 : ∀ i : grid0.Coords, EltTy.bits .bf16 = 32 ∨ (Rect.block (s := S64x512) S64x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4096x512.size a ≤ S4096x512.size a
  hwx0_4 : ∀ i : grid0.Coords, EltTy.bits .bf16 = 32 ∨ (Rect.block (s := S4096x512) S4096x512.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x512.size a ≤ S4096x512.size a
  hwx1_0 : ∀ i : grid1.Coords, EltTy.bits .f32 = 32 ∨ (Rect.block (s := S4096x512) S512x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x512.size a ≤ S4096x512.size a
  hwx1_1 : ∀ i : grid1.Coords, EltTy.bits .bf16 = 32 ∨ (Rect.block (s := S4096x512) S4096x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x4096.size a ≤ S4096x4096.size a
  hwx1_2 : ∀ i : grid1.Coords, EltTy.bits .f32 = 32 ∨ (Rect.block (s := S4096x4096) S512x4096.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x64.size a ≤ S4096x64.size a
  hwx1_3 : ∀ i : grid1.Coords, EltTy.bits .f32 = 32 ∨ (Rect.block (s := S4096x64) S512x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x512.size a ≤ S64x512.size a
  hwx1_4 : ∀ i : grid1.Coords, EltTy.bits .bf16 = 32 ∨ (Rect.block (s := S64x512) S64x512.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x1.size a ≤ S4096x1.size a
  hwx1_5 : ∀ i : grid1.Coords, EltTy.bits .f32 = 32 ∨ (Rect.block (s := S4096x1) S512x1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S512x512.size a ≤ S4096x512.size a
  hwx1_6 : ∀ i : grid1.Coords, EltTy.bits .f32 = 32 ∨ (Rect.block (s := S4096x512) S512x512.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S512x512.size a ≤ S4096x512.size a
  hwx1_7 : ∀ i : grid1.Coords, EltTy.bits .f32 = 32 ∨ (Rect.block (s := S4096x512) S512x512.size (cc1_transform_7 i) (hinb1_7 i)).WholeWords (EltTy.packing .f32)

variable [Facts₀]

def dot_S64x4096_S4096x512_S64x512_1_0_0_1_n_n : DotDims S64x4096 S4096x512 S64x512 where
  lhsContracting := [1]
  rhsContracting := [0]
  lhsNonContracting := [0]
  rhsNonContracting := [1]
  lhsBatch := []
  rhsBatch := []
  wf := dot_S64x4096_S4096x512_S64x512_1_0_0_1_n_n_wf
def dot_S512x4096_S4096x512_S512x512_1_0_0_1_n_n : DotDims S512x4096 S4096x512 S512x512 where
  lhsContracting := [1]
  rhsContracting := [0]
  lhsNonContracting := [0]
  rhsNonContracting := [1]
  lhsBatch := []
  rhsBatch := []
  wf := dot_S512x4096_S4096x512_S512x512_1_0_0_1_n_n_wf
def dot_S512x64_S64x512_S512x512_1_0_0_1_n_n : DotDims S512x64 S64x512 S512x512 where
  lhsContracting := [1]
  rhsContracting := [0]
  lhsNonContracting := [0]
  rhsNonContracting := [1]
  lhsBatch := []
  rhsBatch := []
  wf := dot_S512x64_S64x512_S512x512_1_0_0_1_n_n_wf

abbrev win0_0 : Pipeline.Window sig grid0 :=
  Pipeline.Window.ofSpec (Memref.whole main_arg0) S64x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S4096x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S64x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S64x512.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S4096x512.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg1) S512x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_1) S4096x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S512x4096.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S512x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v0_0) S64x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg4) S512x1.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v1_0) S512x512.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v1_1) S512x512.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S64x512 : Shape := ⟨2, ![64, 512]⟩
abbrev S4096x512 : Shape := ⟨2, ![4096, 512]⟩
abbrev S4096x4096 : Shape := ⟨2, ![4096, 4096]⟩
abbrev S4096x1 : Shape := ⟨2, ![4096, 1]⟩
abbrev S4096x64 : Shape := ⟨2, ![4096, 64]⟩
abbrev S64x4096 : Shape := ⟨2, ![64, 4096]⟩
abbrev S_ : Shape := ⟨0, ![]⟩

abbrev nBuf : Space → Nat
  | .hbm => 34
  | .vmem => 0
  | .smem => 0
  | _ => 0

abbrev bufTy : (tb : Table) → Fin (tcTables nBuf tb) → BufTy
  | .hbm, ⟨0, _⟩ => ⟨S64x512, .f32⟩
  | .hbm, ⟨1, _⟩ => ⟨S4096x512, .f32⟩
  | .hbm, ⟨2, _⟩ => ⟨S4096x512, .f32⟩
  | .hbm, ⟨3, _⟩ => ⟨S4096x4096, .f32⟩
  | .hbm, ⟨4, _⟩ => ⟨S4096x1, .f32⟩
  | .hbm, ⟨5, _⟩ => ⟨S4096x64, .f32⟩
  | .hbm, ⟨6, _⟩ => ⟨S64x4096, .f32⟩
  | .hbm, ⟨7, _⟩ => ⟨S64x512, .f32⟩
  | .hbm, ⟨8, _⟩ => ⟨S64x512, .f32⟩
  | .hbm, ⟨9, _⟩ => ⟨S4096x512, .f32⟩
  | .hbm, ⟨10, _⟩ => ⟨S4096x512, .f32⟩
  | .hbm, ⟨11, _⟩ => ⟨S4096x512, .f32⟩
  | .hbm, ⟨12, _⟩ => ⟨S4096x512, .f32⟩
  | .hbm, ⟨13, _⟩ => ⟨S4096x512, .f32⟩
  | .hbm, ⟨14, _⟩ => ⟨S4096x512, .f32⟩
  | .hbm, ⟨15, _⟩ => ⟨S4096x512, .f32⟩
  | .hbm, ⟨16, _⟩ => ⟨S_, .f32⟩
  | .hbm, ⟨17, _⟩ => ⟨S4096x512, .f32⟩
  | .hbm, ⟨18, _⟩ => ⟨S4096x512, .f32⟩
  | .hbm, ⟨19, _⟩ => ⟨S4096x512, .f32⟩
  | .hbm, ⟨20, _⟩ => ⟨S_, .f32⟩
  | .hbm, ⟨21, _⟩ => ⟨S4096x512, .f32⟩
  | .hbm, ⟨22, _⟩ => ⟨S4096x512, .f32⟩
  | .hbm, ⟨23, _⟩ => ⟨S4096x512, .f32⟩
  | .hbm, ⟨24, _⟩ => ⟨S4096x512, .f32⟩
  | .hbm, ⟨25, _⟩ => ⟨S4096x512, .i1⟩
  | .hbm, ⟨26, _⟩ => ⟨S4096x512, .f32⟩
  | .hbm, ⟨27, _⟩ => ⟨S4096x512, .f32⟩
  | .hbm, ⟨28, _⟩ => ⟨S4096x512, .f32⟩
  | .hbm, ⟨29, _⟩ => ⟨S4096x512, .f32⟩
  | .hbm, ⟨30, _⟩ => ⟨S4096x512, .f32⟩
  | .hbm, ⟨31, _⟩ => ⟨S4096x512, .f32⟩
  | .hbm, ⟨32, _⟩ => ⟨S4096x512, .f32⟩
  | .hbm, ⟨33, _⟩ => ⟨S4096x512, .f32⟩
  | _, _ => ⟨S64x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_call0_cst : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_v12 : Ref sig .tc := ⟨.hbm, 33, rfl⟩

abbrev nD : Nat := 1
abbrev τ : Topo := Topo.v7x

variable {F : FTy → Type} [FloatOps F]

class Facts₀ : Prop where
  bcast_S4096x1_S4096x512_0_1 : S4096x1.BroadcastsInDim S4096x512 (![0, 1] : Fin 2 → Fin S4096x512.rank)
  bcast_S_S4096x512 : S_.BroadcastsInDim S4096x512 (![] : Fin 0 → Fin S4096x512.rank)
  dot_S64x4096_S4096x512_S64x512_1_0_0_1_n_n_wf : DotDims.WF S64x4096 S4096x512 S64x512 [1] [0] [0] [1] [] []
  dot_S4096x64_S64x512_S4096x512_1_0_0_1_n_n_wf : DotDims.WF S4096x64 S64x512 S4096x512 [1] [0] [0] [1] [] []
  dot_S4096x4096_S4096x512_S4096x512_1_0_0_1_n_n_wf : DotDims.WF S4096x4096 S4096x512 S4096x512 [1] [0] [0] [1] [] []

variable [Facts₀]

def dot_S64x4096_S4096x512_S64x512_1_0_0_1_n_n : DotDims S64x4096 S4096x512 S64x512 where
  lhsContracting := [1]
  rhsContracting := [0]
  lhsNonContracting := [0]
  rhsNonContracting := [1]
  lhsBatch := []
  rhsBatch := []
  wf := dot_S64x4096_S4096x512_S64x512_1_0_0_1_n_n_wf
def dot_S4096x64_S64x512_S4096x512_1_0_0_1_n_n : DotDims S4096x64 S64x512 S4096x512 where
  lhsContracting := [1]
  rhsContracting := [0]
  lhsNonContracting := [0]
  rhsNonContracting := [1]
  lhsBatch := []
  rhsBatch := []
  wf := dot_S4096x64_S64x512_S4096x512_1_0_0_1_n_n_wf
def dot_S4096x4096_S4096x512_S4096x512_1_0_0_1_n_n : DotDims S4096x4096 S4096x512 S4096x512 where
  lhsContracting := [1]
  rhsContracting := [0]
  lhsNonContracting := [0]
  rhsNonContracting := [1]
  lhsBatch := []
  rhsBatch := []
  wf := dot_S4096x4096_S4096x512_S4096x512_1_0_0_1_n_n_wf

class Facts : Prop extends Facts₀ where

variable [Facts]
-- ==== Proof.ValueRun.lean ====
/-
  The idealized kernel's run with its two result arrays named.

  @main is two kernel regions in a row. The contents of every buffer at each boundary are a fold from the launch
  memory: `W1` after the projection region (its two outputs at what its write-backs leave, every other buffer as
  launched) and `W2` after the update region. The run below is the same launch over the same two segments as the
  frame's; only the last reading differs: besides the seven argument arrays it also reads the two result buffers,
  which end at `W2`'s contents. What `W2` holds there, as a function of the arguments, is worked out elsewhere.
-/
import proofs.«109126_j9560597201160_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the two result arrays end at the last
    boundary's contents and the seven argument arrays as launched. -/
theorem run : θ_run defs (onTc (τ := τ) (main (F := F))) ⟨m, fun _ => 0, ρ⟩ (fun r => ∀ c : Dev nD,
      r.2.mem ((c.tc : Thread nD τ).loc main_v1_0) = W2 m ρ c (Proc.devRef .tc main_v1_0)
      ∧ r.2.mem ((c.tc : Thread nD τ).loc main_v1_1) = W2 m ρ c (Proc.devRef .tc main_v1_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c =>
      ⟨h c _ (mem_uc main_v1_0 (by decide)),
       h c _ (mem_uc main_v1_1 (by decide)),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c),
       (h c _ (mem_uc main_arg3 (by decide))).trans (W2_main_arg3 m ρ c),
       (h c _ (mem_uc main_arg4 (by decide))).trans (W2_main_arg4 m ρ c),
       (h c _ (mem_uc main_arg5 (by decide))).trans (W2_main_arg5 m ρ c),
       (h c _ (mem_uc main_arg6 (by decide))).trans (W2_main_arg6 m ρ c)⟩)

end Cert.KernelIdeal.RunValue

end
-- ==== Proof.LibPlainMatmul.lean ====
/-
  Two families of small facts about arrays read at coordinates, over literal rank-2 and rank-3 shapes of any sizes.

  * A plain rows-by-columns matrix product — the left operand contracted on its columns, the right on its rows, no
    batch axis — into the zero accumulator, over the extended reals: at `(p, q)` it is the sum over the shared axis
    of the products of row `p` of the left operand and column `q` of the right. A product record of any program
    with these dimension numbers unifies with `plainDims` by unfolding, so the lemma applies to it through
    `refine (matmul_zero_plain _ _ _ p q).trans ?_`.
  * Unit axes added by a shape cast (`[a, c] → [a, 1, c]`, `[c] → [1, 1, c]`) and broadcasts along one or two unit
    axes (`[a, 1, c]`, `[1, b, c]`, `[1, 1, c] → [a, b, c]`), each read at explicit coordinates: a unit axis
    contributes nothing to the row-major position, and a broadcast reads its operand at coordinate zero of the
    axes it spreads.
-/
import Idealize.ShloMosaic.Lib.ValueIdx
import Idealize.ShloMosaic.Lib.Pipeline.Value
import Idealize.ShloMosaic.Lib.ValueLayout
import Idealize.ShloMosaic.PureOps.Ideal.Laws

noncomputable section

namespace Cert.LibPlainMatmul

open Idealize.ShloMosaic Idealize.ShloMosaic.ValueIdx
open scoped BigOperators

/-! ## A rows-by-columns product into the zero accumulator -/

/-- The dimension numbers of a plain m × k by k × n product: the left operand contracted on its columns, the right on
    its rows, no batch axis. -/
abbrev plainDims {m k n : Nat} (wf : DotDims.WF (⟨2, ![m, k]⟩ : Shape) ⟨2, ![k, n]⟩ ⟨2, ![m, n]⟩ [1] [0] [0] [1] [] []) :
    DotDims ⟨2, ![m, k]⟩ ⟨2, ![k, n]⟩ ⟨2, ![m, n]⟩ := ⟨[1], [0], [0], [1], [], [], wf⟩

section PlainDims
variable {m k n : Nat} (wf : DotDims.WF (⟨2, ![m, k]⟩ : Shape) ⟨2, ![k, n]⟩ ⟨2, ![m, n]⟩ [1] [0] [0] [1] [] [])

/-- The left operand is read in the result's row … -/
theorem plain_lhs_row (j : (⟨2, ![m, n]⟩ : Shape).Idx) (c : (plainDims wf).contr.Idx) :
    ((plainDims wf).lhsIdx j c 0).val = (j 0).val := by
  unfold DotDims.lhsIdx
  rw [dif_neg (show ¬(0 : Fin (⟨2, ![m, k]⟩ : Shape).rank) ∈ (plainDims wf).lhsBatch from List.not_mem_nil),
    dif_pos (show (0 : Fin (⟨2, ![m, k]⟩ : Shape).rank) ∈ (plainDims wf).lhsNonContracting from List.mem_singleton.mpr rfl)]
  rfl

/-- … and the right operand in the result's column. -/
theorem plain_rhs_col (j : (⟨2, ![m, n]⟩ : Shape).Idx) (c : (plainDims wf).contr.Idx) :
    ((plainDims wf).rhsIdx j c 1).val = (j 1).val := by
  unfold DotDims.rhsIdx
  rw [dif_neg (show ¬(1 : Fin (⟨2, ![k, n]⟩ : Shape).rank) ∈ (plainDims wf).rhsBatch from List.not_mem_nil),
    dif_pos (show (1 : Fin (⟨2, ![k, n]⟩ : Shape).rank) ∈ (plainDims wf).rhsNonContracting from List.mem_singleton.mpr rfl)]
  rfl

/-- Such a product into the zero accumulator reads, at (p, q), the sum over the shared axis of the products of row p
    of the left operand and column q of the right. -/
theorem matmul_zero_plain {φ₁ φ₂ : FTy} (l : FVec Ideal ⟨2, ![m, k]⟩ φ₁) (r : FVec Ideal ⟨2, ![k, n]⟩ φ₂)
    (p : Fin m) (q : Fin n) :
    FloatOps.matmul (plainDims wf) none l r (constant (F := Ideal) ⟨2, ![m, n]⟩ .f32 0x00000000#32) (ix2 p q)
      = ∑ c : Fin k, l (ix2 p c) * r (ix2 c q) := by
  rw [Ideal.matmul_constant_zero_apply, ← Equiv.sum_comp (contrEquiv1 (plainDims wf) k rfl rfl).symm]
  refine Finset.sum_congr rfl fun c _ => ?_
  have hc := contrEquiv1_symm_val (plainDims wf) k rfl rfl c
  have el : (plainDims wf).lhsIdx (ix2 p q) ((contrEquiv1 (plainDims wf) k rfl rfl).symm c) = ix2 p c :=
    funext fun a => Fin.ext (by
      match a with
      | ⟨0, _⟩ => exact plain_lhs_row wf _ _
      | ⟨1, _⟩ => exact ((plainDims wf).lhsIdx_val_of_single rfl _ _).trans hc)
  have er : (plainDims wf).rhsIdx (ix2 p q) ((contrEquiv1 (plainDims wf) k rfl rfl).symm c) = ix2 c q :=
    funext fun a => Fin.ext (by
      match a with
      | ⟨0, _⟩ => exact ((plainDims wf).rhsIdx_val_of_single rfl _ _).trans hc
      | ⟨1, _⟩ => exact plain_rhs_col wf _ _)
  rw [el, er]

end PlainDims

/-! ## Unit axes added, and broadcasts along an axis, read at coordinates -/

section Layout
variable {α : Type}

/-- An [a, c] array cast to [a, 1, c] reads, at (p, z, s), the operand at (p, s). -/
theorem shapeCast_ac_a1c_apply {a c : ℕ} (x : (⟨2, ![a, c]⟩ : Shape).Idx → α)
    (h : (⟨2, ![a, c]⟩ : Shape).ShapeCasts ⟨3, ![a, 1, c]⟩) (p : Fin a) (z : Fin 1) (s : Fin c) :
    shapeCast ⟨3, ![a, 1, c]⟩ x h (ix3 p z s) = x (ix2 p s) :=
  shapeCast_apply x h _ _ (by
    have hz : z.val = 0 := by omega
    rw [Shape.rowMajor_val_three, Shape.rowMajor_val_two]
    show p.val * c + s.val = (p.val * 1 + z.val) * c + s.val
    rw [hz, Nat.mul_one, Nat.add_zero])

/-- A [c] array cast to [1, 1, c] reads, at (y, z, s), the operand at s. -/
theorem shapeCast_c_11c_apply {c : ℕ} (x : (⟨1, ![c]⟩ : Shape).Idx → α)
    (h : (⟨1, ![c]⟩ : Shape).ShapeCasts ⟨3, ![1, 1, c]⟩) (y z : Fin 1) (s : Fin c) :
    shapeCast ⟨3, ![1, 1, c]⟩ x h (ix3 y z s) = x (ix1 s) :=
  shapeCast_apply x h _ _ (by
    have hy : y.val = 0 := by omega
    have hz : z.val = 0 := by omega
    rw [Shape.rowMajor_val_three, Shape.rowMajor_val_one]
    show s.val = (y.val * 1 + z.val) * c + s.val
    simp only [hy, hz, Nat.zero_mul, Nat.zero_add, Nat.mul_one])

/-- An [a, 1, c] array broadcast to [a, b, c] reads, at (p, q, s), the operand at (p, 0, s). -/
theorem broadcastTo_a1c_abc_apply {a b c : ℕ} (x : (⟨3, ![a, 1, c]⟩ : Shape).Idx → α)
    (h : (⟨3, ![a, 1, c]⟩ : Shape).Broadcasts ⟨3, ![a, b, c]⟩) (p : Fin a) (q : Fin b) (s : Fin c) :
    broadcastTo ⟨3, ![a, b, c]⟩ x h (ix3 p q s) = x (ix3 p (0 : Fin 1) s) := by
  refine broadcastTo_apply x h (ix3 p q s) (ix3 p (0 : Fin 1) s) fun ax => ?_
  match ax with
  | ⟨0, _⟩ =>
    show p.val = if a = 1 then 0 else p.val
    split
    · have := p.isLt; omega
    · rfl
  | ⟨1, _⟩ => rfl
  | ⟨2, _⟩ =>
    show s.val = if c = 1 then 0 else s.val
    split
    · have := s.isLt; omega
    · rfl

/-- A [1, b, c] array broadcast to [a, b, c] reads, at (p, q, s), the operand at (0, q, s). -/
theorem broadcastTo_1bc_abc_apply {a b c : ℕ} (x : (⟨3, ![1, b, c]⟩ : Shape).Idx → α)
    (h : (⟨3, ![1, b, c]⟩ : Shape).Broadcasts ⟨3, ![a, b, c]⟩) (p : Fin a) (q : Fin b) (s : Fin c) :
    broadcastTo ⟨3, ![a, b, c]⟩ x h (ix3 p q s) = x (ix3 (0 : Fin 1) q s) := by
  refine broadcastTo_apply x h (ix3 p q s) (ix3 (0 : Fin 1) q s) fun ax => ?_
  match ax with
  | ⟨0, _⟩ => rfl
  | ⟨1, _⟩ =>
    show q.val = if b = 1 then 0 else q.val
    split
    · have := q.isLt; omega
    · rfl
  | ⟨2, _⟩ =>
    show s.val = if c = 1 then 0 else s.val
    split
    · have := s.isLt; omega
    · rfl

/-- A [1, 1, c] array broadcast to [a, b, c] reads, at (p, q, s), the operand at (0, 0, s). -/
theorem broadcastTo_11c_abc_apply {a b c : ℕ} (x : (⟨3, ![1, 1, c]⟩ : Shape).Idx → α)
    (h : (⟨3, ![1, 1, c]⟩ : Shape).Broadcasts ⟨3, ![a, b, c]⟩) (p : Fin a) (q : Fin b) (s : Fin c) :
    broadcastTo ⟨3, ![a, b, c]⟩ x h (ix3 p q s) = x (ix3 (0 : Fin 1) (0 : Fin 1) s) := by
  refine broadcastTo_apply x h (ix3 p q s) (ix3 (0 : Fin 1) (0 : Fin 1) s) fun ax => ?_
  match ax with
  | ⟨0, _⟩ => rfl
  | ⟨1, _⟩ => rfl
  | ⟨2, _⟩ =>
    show s.val = if c = 1 then 0 else s.val
    split
    · have := s.isLt; omega
    · rfl

end Layout

end Cert.LibPlainMatmul

end
-- ==== Proof.LibKeepdims.lean ====
/-
  A sum along the rows of a matrix kept as a column, read at an index.

  `jnp.sum(x, axis=-1, keepdims=True)` of an `[a, b]` block is printed as three steps: the sum over the second
  axis into an `[a]` vector, that vector re-laid as an `[a, 1]` column, and (where it meets the block again) the
  column repeated along the rows to `[a, b]`. Read at an index `(p, c)` each step is elementary:
  * the sum at `p` is `∑ k, x (p, k)` over the `b` entries of row `p` (at the exact instance, with the neutral
    accumulator, which the reading drops);
  * the column at `(p, 0)` is the vector at `p`: row-major positions `p · 1 + 0 = p`;
  * the repeated column at `(p, c)` is the column at `(p, 0)`, whatever `c` is.
  All three are stated for any extents `a`, `b`.
-/
import Idealize.ShloMosaic.Lib.ValueLayout
import Idealize.ShloMosaic.PureOps.Ideal.Laws

noncomputable section

namespace Cert.LibKeepdims

open Idealize.ShloMosaic Idealize.ShloMosaic.ValueIdx

variable {α : Type}

/-- An `[a]` vector re-laid as an `[a, 1]` column reads, at `(i, u)`, the vector at `i`, whatever the unit
    coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column repeated along the rows to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- At the exact instance, the sum of an `[a, b]` block over its second axis, from the neutral accumulator, is at
    `p` the sum of the `b` entries of row `p`. -/
theorem multiReduction_add_row {a b : ℕ} {φ : FTy} (src : FVec Ideal ⟨2, ![a, b]⟩ φ) (acc : BitVec φ.bits)
    (h : Shape.Reduces ⟨2, ![a, b]⟩ [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun ax => Fin.ext (by
      match ax with
      | ⟨0, _⟩ => rfl
      | ⟨1, _⟩ => rfl)))

end Cert.LibKeepdims

end
-- ==== Proof.Spec.lean ====
/-
  The thalamic network step, entry by entry, over the extended reals.

  For a rate matrix `r` (4096 × 512), weights `J` (4096 × 4096), low-rank factors `U` (4096 × 64) and
  `V` (64 × 4096), a thalamic gain `rt` (64 × 512), a bias column `B` (4096 × 1) and a state `x` (4096 × 512):

    s      = rt ⊙ (V r)                         the scaled projection, 64 × 512
    rec    = J r + U s                          the recurrent input
    x'     = x + c · ((−x + rec) + B)           the leaky step, `c` the binary32 number nearest 1/3
    r'     = max x' 0 + log (1 + e^(−|x'|))     the softplus of the new state

  Every product of matrices is the plain sum over the shared axis. Nothing here needs a finite entry: the two
  programs are compared sum for sum and product for product, and only the order of one addition and the
  spelling of a negation differ.
-/
import Idealize.ShloMosaic.PureOps.Ideal
import Idealize.ShloMosaic.Lib.ValueIdx
import Idealize.ShloMosaic.PureOps.Ideal.Laws

noncomputable section

namespace Cert.Thalamic

open Idealize.ShloMosaic Idealize.ShloMosaic.ValueIdx
open scoped BigOperators

/-- An `a × b` matrix of extended reals. -/
abbrev Mat (a b : Nat) : Type := (⟨2, ![a, b]⟩ : Shape).Idx → EReal

/-- Entry `(p, q)` of the product of an `a × k` by a `k × b` matrix. -/
def mm {a k b : Nat} (A : Mat a k) (B : Mat k b) (p : Fin a) (q : Fin b) : EReal :=
  ∑ l : Fin k, A (ix2 p l) * B (ix2 l q)

/-- The scaled projection `rt ⊙ (V r)`. -/
def proj (rt : Mat 64 512) (V : Mat 64 4096) (r : Mat 4096 512) : Mat 64 512 :=
  fun i => rt i * mm V r (i 0) (i 1)

/-- The step's constant: the binary32 number nearest one third. -/
def third : EReal := Ideal.ofBits .f32 0x3EAAAAAB#32

/-- One entry of the leaky step. -/
def leak (x rec b : EReal) : EReal := x + third * ((-x + rec) + b)

/-- The leaky step from a GIVEN projection `s` and a given copy `rb` of the rates: what the update region computes
    from the six arrays it finds. -/
def step (x rb : Mat 4096 512) (J : Mat 4096 4096) (U : Mat 4096 64) (s : Mat 64 512) (B : Mat 4096 1) : Mat 4096 512 :=
  fun i => leak (x i) (mm J rb (i 0) (i 1) + mm U s (i 0) (i 1)) (B (ix2 (i 0) (0 : Fin 1)))

/-- The new state: the step from the scaled projection of the same rates. -/
def xnew (rt : Mat 64 512) (x r : Mat 4096 512) (J : Mat 4096 4096) (B : Mat 4096 1) (U : Mat 4096 64)
    (V : Mat 64 4096) : Mat 4096 512 :=
  step x r J U (proj rt V r) B

/-- The new state at `(p, q)`, every sum spelt out. -/
theorem xnew_apply (rt : Mat 64 512) (x r : Mat 4096 512) (J : Mat 4096 4096) (B : Mat 4096 1) (U : Mat 4096 64)
    (V : Mat 64 4096) (p : Fin 4096) (q : Fin 512) :
    xnew rt x r J B U V (ix2 p q)
      = x (ix2 p q) + third * ((-x (ix2 p q) + ((∑ l : Fin 4096, J (ix2 p l) * r (ix2 l q))
          + ∑ k : Fin 64, U (ix2 p k) * (rt (ix2 k q) * ∑ l : Fin 4096, V (ix2 k l) * r (ix2 l q))))
          + B (ix2 p (0 : Fin 1))) := rfl

/-- The softplus of one entry, in the overflow-free form `max y 0 + log (1 + e^(−|y|))`. -/
def softplus (y : EReal) : EReal := max y 0 + Ideal.log1p (Ideal.exp (-(max y (-y))))

/-- The new rates. -/
def rnew (rt : Mat 64 512) (x r : Mat 4096 512) (J : Mat 4096 4096) (B : Mat 4096 1) (U : Mat 4096 64)
    (V : Mat 64 4096) : Mat 4096 512 :=
  fun i => softplus (xnew rt x r J B U V i)

/-! ## The two spellings of the softplus

Both programs guard the formula by a test `y − 0 ≠ y − 0` (true only of a not-a-number, of which the extended reals
have none) and subtract and add a literal zero; the kernel writes the negation as `0 − ·`, the host as `−·`. -/

/-- A value is never different from itself, whichever of the two "not equal" predicates asks. -/
theorem cmp_ne_self (y : EReal) : Ideal.cmp .one y y = 0#1 ∧ Ideal.cmp .une y y = 0#1 := by
  constructor <;> simp [Ideal.cmp]

/-- The kernel's spelling. -/
theorem softplus_kernel_form (y : EReal) :
    Scalar.select (Ideal.cmp .one (y - Ideal.ofBits .f32 0x00000000#32) (y - Ideal.ofBits .f32 0x00000000#32))
      (y + Ideal.ofBits .f32 0x00000000#32)
      (max y (Ideal.ofBits .f32 0x00000000#32) + Ideal.log1p (Ideal.exp (Ideal.ofBits .f32 0x00000000#32
        - max (y - Ideal.ofBits .f32 0x00000000#32) (-(y - Ideal.ofBits .f32 0x00000000#32)))))
      = softplus y := by
  rw [Ideal.ofBits_zero_f32, (cmp_ne_self (y - 0)).1]
  unfold Scalar.select softplus
  rw [if_neg (by decide), sub_zero, zero_sub]

/-- The host's spelling. -/
theorem softplus_host_form (y : EReal) :
    Scalar.select (Ideal.cmp .une (y - Ideal.ofBits .f32 0x00000000#32) (y - Ideal.ofBits .f32 0x00000000#32))
      (y + Ideal.ofBits .f32 0x00000000#32)
      (max y (Ideal.ofBits .f32 0x00000000#32) + Ideal.log1p (Ideal.exp
        (-(max (y - Ideal.ofBits .f32 0x00000000#32) (-(y - Ideal.ofBits .f32 0x00000000#32))))))
      = softplus y := by
  rw [Ideal.ofBits_zero_f32, (cmp_ne_self (y - 0)).2]
  unfold Scalar.select softplus
  rw [if_neg (by decide), sub_zero]

/-- The kernel's `0 − x` is the host's `−x`. -/
theorem zero_word_sub (x : EReal) : Ideal.ofBits .f32 0x00000000#32 - x = -x := by
  rw [Ideal.ofBits_zero_f32, zero_sub]

end Cert.Thalamic

end
-- ==== Proof.Payload.lean ====
/-
  What the two kernel bodies compute, read at one entry, over the extended reals.

  The projection body multiplies the gain block by the product of `V` and `r` (both first cast to the short
  float format, a cast that changes nothing here) and also hands `r` on unchanged. The update body forms
  `J r + U s` from its row block of `J` and `U`, takes the leaky step with the bias column repeated along the
  row, and applies the softplus. Each statement is over arbitrary blocks of the literal shapes and explicit
  coordinates `(a, q)`.
-/
import proofs.«109126_j9560597201160_2_alg».proof.Proof.Gen.KernelIdeal.Skeleton
import proofs.«109126_j9560597201160_2_alg».proof.Proof.LibPlainMatmul
import proofs.«109126_j9560597201160_2_alg».proof.Proof.LibKeepdims
import proofs.«109126_j9560597201160_2_alg».proof.Proof.Spec
import Idealize.ShloMosaic.Lib.ValueIdx
import Idealize.ShloMosaic.Lib.Pipeline.Value
import Idealize.ShloMosaic.PureOps.Ideal.Laws

noncomputable section

namespace Cert.KernelIdeal.Payload

open Cert.KernelIdeal Cert.KernelIdeal.Gen Cert.Thalamic
open Idealize.ShloMosaic Idealize.ShloMosaic.ValueIdx
open scoped BigOperators

/-- The cast of `r` to the short format keeps every entry. -/
theorem cast_apply (v0 : Vec Ideal S4096x512 .f32) (i : S4096x512.Idx) : k0_pay1 (F := Ideal) v0 i = v0 i := rfl

/-- The projection body at `(j, q)`: the gain times row `j` of `V` against column `q` of `r`. -/
theorem proj_apply (v0 : Vec Ideal S4096x512 .f32) (v2 : Vec Ideal S64x4096 .f32) (v5 : Vec Ideal S64x512 .f32)
    (j : Fin 64) (q : Fin 512) :
    k0_pay2 (F := Ideal) v0 v2 v5 (ix2 j q) = v5 (ix2 j q) * mm v2 v0 j q := by
  unfold k0_pay2
  show v5 (ix2 j q) * FloatOps.matmul dot_S64x4096_S4096x512_S64x512_1_0_0_1_n_n none
      (truncf .bf16 v2 bitsLt_bf16_f32) (k0_pay1 v0) (constant S64x512 .f32 0x00000000#32) (ix2 j q) = _
  refine congrArg (v5 (ix2 j q) * ·) ?_
  exact (LibPlainMatmul.matmul_zero_plain _ _ _ j q).trans rfl

/-- The update body's new state at `(a, q)`: the leaky step of the state entry, with the recurrent input the row
    `a` of the `J` block against column `q` of `r` plus the row `a` of the `U` block against column `q` of the
    scaled projection, and the bias the column's entry `a`. -/
theorem step_apply (v0 : Vec Ideal S4096x512 .bf16) (v2 : Vec Ideal S512x4096 .f32) (v4 : Vec Ideal S512x64 .f32)
    (v6 : Vec Ideal S64x512 .bf16) (v11 : Vec Ideal S512x512 .f32) (v12 : Vec Ideal S512x1 .f32) (a q : Fin 512) :
    k1_pay1 (F := Ideal) v0 v2 v4 v6 v11 v12 (ix2 a q)
      = leak (v11 (ix2 a q)) (mm v2 v0 a q + mm v4 v6 a q) (v12 (ix2 a (0 : Fin 1))) := by
  have h1 : (matmul dot_S512x4096_S4096x512_S512x512_1_0_0_1_n_n none (truncf .bf16 v2 bitsLt_bf16_f32)
      (shapeCast S4096x512 v0 shapeCasts_S4096x512_S4096x512 : FVec Ideal S4096x512 .bf16) (constant S512x512 .f32 0x00000000#32)
        : FVec Ideal S512x512 .f32) (ix2 a q) = mm v2 v0 a q := by
    rw [shapeCast_self]
    exact (LibPlainMatmul.matmul_zero_plain (φ₁ := .bf16) (φ₂ := .bf16) _ _ _ a q).trans rfl
  have h2 : (matmul dot_S512x64_S64x512_S512x512_1_0_0_1_n_n none (truncf .bf16 v4 bitsLt_bf16_f32)
      (shapeCast S64x512 v6 shapeCasts_S64x512_S64x512 : FVec Ideal S64x512 .bf16) (constant S512x512 .f32 0x00000000#32)
        : FVec Ideal S512x512 .f32) (ix2 a q) = mm v4 v6 a q := by
    rw [shapeCast_self]
    exact (LibPlainMatmul.matmul_zero_plain (φ₁ := .bf16) (φ₂ := .bf16) _ _ _ a q).trans rfl
  have h3 : broadcastTo S512x512 v12 broadcasts_S512x1_S512x512 (ix2 a q) = v12 (ix2 a (0 : Fin 1)) :=
    LibKeepdims.broadcastTo_a1_ab_apply _ _ a q
  have hz := zero_word_sub (v11 (ix2 a q))
  exact congrArg (v11 (ix2 a q) + ·) (congrArg (third * ·)
    (congrArg₂ (· + ·) (congrArg₂ (· + ·) hz (congrArg₂ (· + ·) h1 h2)) h3))

/-- The update body's new rates at `(a, q)`: the softplus of its new state there. -/
theorem rate_apply (v0 : Vec Ideal S4096x512 .bf16) (v2 : Vec Ideal S512x4096 .f32) (v4 : Vec Ideal S512x64 .f32)
    (v6 : Vec Ideal S64x512 .bf16) (v11 : Vec Ideal S512x512 .f32) (v12 : Vec Ideal S512x1 .f32) (i : S512x512.Idx) :
    k1_pay2 (F := Ideal) v0 v2 v4 v6 v11 v12 i = softplus (k1_pay1 (F := Ideal) v0 v2 v4 v6 v11 v12 i) :=
  softplus_kernel_form _

end Cert.KernelIdeal.Payload

end
-- ==== Proof.Region0.lean ====
/-
  The projection region: what its two output arrays hold when it is left.

  The region's grid has a single point and each of its five windows is its whole array (block index zero on both
  axes), so a block read at an entry is the array read at the same entry, and the one write-back of each output
  covers the output. After the region the first output holds the scaled projection `rt ⊙ (V r)` of the contents
  the region found in its three inputs, and the second output holds `r` itself.
-/
import proofs.«109126_j9560597201160_2_alg».proof.Proof.Gen.KernelIdeal.Frame
import proofs.«109126_j9560597201160_2_alg».proof.Proof.Payload
import Idealize.ShloMosaic.Lib.Pipeline.Value

set_option maxRecDepth 16384

noncomputable section

namespace Cert.KernelIdeal.Region0

open Cert.KernelIdeal Cert.KernelIdeal.Gen Cert.Thalamic Cert.KernelIdeal.Payload
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Every window of the region sits at block index zero on both axes, at its one point. -/
theorem idx_zero : ∀ t : Fin cfg0.N, ∀ a : Fin 2, win0_0.index t a = 0 ∧ win0_1.index t a = 0 ∧ win0_2.index t a = 0
    ∧ win0_3.index t a = 0 ∧ win0_4.index t a = 0 :=
  (by decide +kernel : ∀ t : Fin grid0.N, ∀ a : Fin 2, win0_0.index t a = 0 ∧ win0_1.index t a = 0 ∧ win0_2.index t a = 0
    ∧ win0_3.index t a = 0 ∧ win0_4.index t a = 0)

/-- The gain block is the gain array. -/
theorem blk_gain (c : Dev nD) (t : Fin cfg0.N) : (iblk0 V c 0 t : Vec Ideal S64x512 .f32) = V c main_arg0 := by
  funext y
  unfold iblk0
  rw [View.read_apply]
  show V c main_arg0 _ = V c main_arg0 _
  congr 1
  funext a
  apply Fin.ext
  match a with
  | ⟨0, _⟩ => show win0_0.index t 0 * 64 + 1 * (y 0).val = (y 0).val; rw [(idx_zero t 0).1]; omega
  | ⟨1, _⟩ => show win0_0.index t 1 * 512 + 1 * (y 1).val = (y 1).val; rw [(idx_zero t 1).1]; omega

/-- The rate block is the rate array. -/
theorem blk_rate (c : Dev nD) (t : Fin cfg0.N) : (iblk0 V c 1 t : Vec Ideal S4096x512 .f32) = V c main_arg2 := by
  funext y
  unfold iblk0
  rw [View.read_apply]
  show V c main_arg2 _ = V c main_arg2 _
  congr 1
  funext a
  apply Fin.ext
  match a with
  | ⟨0, _⟩ => show win0_1.index t 0 * 4096 + 1 * (y 0).val = (y 0).val; rw [(idx_zero t 0).2.1]; omega
  | ⟨1, _⟩ => show win0_1.index t 1 * 512 + 1 * (y 1).val = (y 1).val; rw [(idx_zero t 1).2.1]; omega

/-- The block of `V` is `V`. -/
theorem blk_V (c : Dev nD) (t : Fin cfg0.N) : (iblk0 V c 2 t : Vec Ideal S64x4096 .f32) = V c main_arg6 := by
  funext y
  unfold iblk0
  rw [View.read_apply]
  show V c main_arg6 _ = V c main_arg6 _
  congr 1
  funext a
  apply Fin.ext
  match a with
  | ⟨0, _⟩ => show win0_2.index t 0 * 64 + 1 * (y 0).val = (y 0).val; rw [(idx_zero t 0).2.2.1]; omega
  | ⟨1, _⟩ => show win0_2.index t 1 * 4096 + 1 * (y 1).val = (y 1).val; rw [(idx_zero t 1).2.2.1]; omega

/-- The projection body's result block is the scaled projection of its three input blocks. -/
theorem proj_block (x0 : Vec Ideal S64x512 .f32) (x1 : Vec Ideal S4096x512 .f32) (x2 : Vec Ideal S64x4096 .f32) :
    (k0_pay2 (F := Ideal) x1 x2 x0 : S64x512.Idx → EReal) = proj x0 x2 x1 := by
  funext j
  obtain ⟨a, q, rfl⟩ : ∃ (a : Fin 64) (q : Fin 512), j = ix2 a q := ⟨j 0, j 1, eq_ix2 j⟩
  exact proj_apply x1 x2 x0 a q

/-- What the one point writes back to the first output is the scaled projection read through the block. -/
theorem flushed_proj (c : Dev nD) (t : Fin cfg0.N) :
    (dat0 V c).flushed 3 t
      = ((cfg0.win 3).blk t).view.read (Elt Ideal) (proj (V c main_arg0) (V c main_arg6) (V c main_arg2)) := by
  show (cfg0.win 3).cut (grid0.coords t) ((dat0 V c).after 3 t) = _
  rw [after0_3]
  unfold out0_3
  rw [View.canon_unit_zero hz]
  simp only [View.ld_unit_zero (S := S4096x512) hz, View.ld_unit_zero (S := S64x4096) hz, View.ld_unit_zero (S := S64x512) hz]
  rw [blk_gain V c t, blk_rate V c t, blk_V V c t]
  funext j
  show k0_pay2 (F := Ideal) (V c main_arg2) (V c main_arg6) (V c main_arg0) j
    = proj (V c main_arg0) (V c main_arg6) (V c main_arg2) (((cfg0.win 3).blk t).view.emb j)
  refine (congrFun (proj_block _ _ _) j).trans (congrArg _ ?_)
  funext a
  apply Fin.ext
  match a with
  | ⟨0, _⟩ => show (j 0).val = win0_3.index t 0 * 64 + 1 * (j 0).val; rw [(idx_zero t 0).2.2.2.1]; omega
  | ⟨1, _⟩ => show (j 1).val = win0_3.index t 1 * 512 + 1 * (j 1).val; rw [(idx_zero t 1).2.2.2.1]; omega

/-- What the one point writes back to the second output is the rate array read through the block. -/
theorem flushed_rate (c : Dev nD) (t : Fin cfg0.N) :
    (dat0 V c).flushed 4 t = ((cfg0.win 4).blk t).view.read (Elt Ideal) (V c main_arg2 : S4096x512.Idx → EReal) := by
  show (cfg0.win 4).cut (grid0.coords t) ((dat0 V c).after 4 t) = _
  rw [after0_4]
  unfold out0_4
  rw [View.canon_unit_zero hz]
  simp only [View.ld_unit_zero (S := S4096x512) hz]
  rw [blk_rate V c t]
  funext j
  show k0_pay1 (F := Ideal) (V c main_arg2) j = (V c main_arg2 : S4096x512.Idx → EReal) (((cfg0.win 4).blk t).view.emb j)
  refine (cast_apply _ j).trans (congrArg _ ?_)
  funext a
  apply Fin.ext
  match a with
  | ⟨0, _⟩ => show (j 0).val = win0_4.index t 0 * 4096 + 1 * (j 0).val; rw [(idx_zero t 0).2.2.2.2]; omega
  | ⟨1, _⟩ => show (j 1).val = win0_4.index t 1 * 512 + 1 * (j 1).val; rw [(idx_zero t 1).2.2.2.2]; omega

/-- After the region the first output holds the scaled projection of what the region found. -/
theorem final_proj (c : Dev nD) :
    (dat0 V c).arrAt 3 cfg0.N = proj (V c main_arg0) (V c main_arg6) (V c main_arg2) :=
  (dat0 V c).arrAt_eq_of_cover 3 _ (fun t _ => flushed_proj V c t) fun i =>
    ⟨t0_0, flush0_3 t0_0, by
      show i ∈ ((View.whole main_v0_0).slice (win0_3.rect t0_0)).set
      rw [View.set_slice_whole, Rect.mem_set_unit]
      intro a
      have h0 : (i 0 : Nat) < 64 := (i 0).isLt
      have h1 : (i 1 : Nat) < 512 := (i 1).isLt
      match a with
      | ⟨0, _⟩ => show win0_3.index t0_0 0 * 64 ≤ (i 0 : Nat) ∧ (i 0 : Nat) < win0_3.index t0_0 0 * 64 + 64
                  rw [(idx_zero t0_0 0).2.2.2.1]; omega
      | ⟨1, _⟩ => show win0_3.index t0_0 1 * 512 ≤ (i 1 : Nat) ∧ (i 1 : Nat) < win0_3.index t0_0 1 * 512 + 512
                  rw [(idx_zero t0_0 1).2.2.2.1]; omega⟩

/-- After the region the second output holds the rate array the region found. -/
theorem final_rate (c : Dev nD) :
    (dat0 V c).arrAt 4 cfg0.N = (V c main_arg2 : S4096x512.Idx → EReal) :=
  (dat0 V c).arrAt_eq_of_cover 4 _ (fun t _ => flushed_rate V c t) fun i =>
    ⟨t0_0, flush0_4 t0_0, by
      show i ∈ ((View.whole main_v0_1).slice (win0_4.rect t0_0)).set
      rw [View.set_slice_whole, Rect.mem_set_unit]
      intro a
      have h0 : (i 0 : Nat) < 4096 := (i 0).isLt
      have h1 : (i 1 : Nat) < 512 := (i 1).isLt
      match a with
      | ⟨0, _⟩ => show win0_4.index t0_0 0 * 4096 ≤ (i 0 : Nat) ∧ (i 0 : Nat) < win0_4.index t0_0 0 * 4096 + 4096
                  rw [(idx_zero t0_0 0).2.2.2.2]; omega
      | ⟨1, _⟩ => show win0_4.index t0_0 1 * 512 ≤ (i 1 : Nat) ∧ (i 1 : Nat) < win0_4.index t0_0 1 * 512 + 512
                  rw [(idx_zero t0_0 1).2.2.2.2]; omega⟩

end Cert.KernelIdeal.Region0

end
-- ==== Proof.Region1.lean ====
/-
  The update region: what its two output arrays hold when it is left.

  The grid has eight points. At point `t` the state, `J`, `U` and bias windows are the row block `512 t … 512 t + 511`
  of their arrays (block index `t` on the rows, zero on the columns), the copied rates and the scaled projection are
  whole arrays, and both outputs are written back through the same row block. So what point `t` writes is rows
  `512 t …` of ONE function of the arrays the region finds — the leaky step, and its softplus — and the eight row
  blocks cover the 4096 rows: row `p` is in the block of point `p / 512`.
-/
import proofs.«109126_j9560597201160_2_alg».proof.Proof.Gen.KernelIdeal.Frame
import proofs.«109126_j9560597201160_2_alg».proof.Proof.Payload
import Idealize.ShloMosaic.Lib.Pipeline.Value

set_option maxRecDepth 16384

noncomputable section

namespace Cert.KernelIdeal.Region1

open Cert.KernelIdeal Cert.KernelIdeal.Gen Cert.Thalamic Cert.KernelIdeal.Payload
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- The block indices over the grid: the four row-blocked inputs and the two outputs move with the point on the
    rows; the two resident inputs stay at zero; every column index is zero. -/
theorem idx_rows : ∀ t : Fin cfg1.N,
    (win1_0.index t 0 = t.val ∧ win1_0.index t 1 = 0) ∧ (win1_1.index t 0 = 0 ∧ win1_1.index t 1 = 0)
    ∧ (win1_2.index t 0 = t.val ∧ win1_2.index t 1 = 0) ∧ (win1_3.index t 0 = t.val ∧ win1_3.index t 1 = 0)
    ∧ (win1_4.index t 0 = 0 ∧ win1_4.index t 1 = 0) ∧ (win1_5.index t 0 = t.val ∧ win1_5.index t 1 = 0)
    ∧ (win1_6.index t 0 = t.val ∧ win1_6.index t 1 = 0) ∧ (win1_7.index t 0 = t.val ∧ win1_7.index t 1 = 0) :=
  (by decide +kernel : ∀ t : Fin grid1.N,
    (win1_0.index t 0 = t.val ∧ win1_0.index t 1 = 0) ∧ (win1_1.index t 0 = 0 ∧ win1_1.index t 1 = 0)
    ∧ (win1_2.index t 0 = t.val ∧ win1_2.index t 1 = 0) ∧ (win1_3.index t 0 = t.val ∧ win1_3.index t 1 = 0)
    ∧ (win1_4.index t 0 = 0 ∧ win1_4.index t 1 = 0) ∧ (win1_5.index t 0 = t.val ∧ win1_5.index t 1 = 0)
    ∧ (win1_6.index t 0 = t.val ∧ win1_6.index t 1 = 0) ∧ (win1_7.index t 0 = t.val ∧ win1_7.index t 1 = 0))

theorem point_lt (t : Fin cfg1.N) : t.val < 8 := Nat.lt_of_lt_of_eq t.isLt N_1

/-- Row `a` of the block of point `t` is row `512 t + a` of the array. -/
def row (t : Fin cfg1.N) (a : Fin 512) : Fin 4096 := ⟨t.val * 512 + a.val, by have := point_lt t; have := a.isLt; omega⟩

theorem row_val (t : Fin cfg1.N) (a : Fin 512) : (row t a).val = t.val * 512 + a.val := rfl

/-- The copied rates' block is the whole array. -/
theorem blk_rates (c : Dev nD) (t : Fin cfg1.N) : (iblk1 V c 1 t : Vec Ideal S4096x512 .bf16) = V c main_v0_1 := by
  funext y
  unfold iblk1
  rw [View.read_apply]
  show V c main_v0_1 _ = V c main_v0_1 _
  congr 1
  funext a
  apply Fin.ext
  match a with
  | ⟨0, _⟩ => show win1_1.index t 0 * 4096 + 1 * (y 0).val = (y 0).val; rw [(idx_rows t).2.1.1]; omega
  | ⟨1, _⟩ => show win1_1.index t 1 * 512 + 1 * (y 1).val = (y 1).val; rw [(idx_rows t).2.1.2]; omega

/-- The scaled projection's block is the whole array. -/
theorem blk_proj (c : Dev nD) (t : Fin cfg1.N) : (iblk1 V c 4 t : Vec Ideal S64x512 .bf16) = V c main_v0_0 := by
  funext y
  unfold iblk1
  rw [View.read_apply]
  show V c main_v0_0 _ = V c main_v0_0 _
  congr 1
  funext a
  apply Fin.ext
  match a with
  | ⟨0, _⟩ => show win1_4.index t 0 * 64 + 1 * (y 0).val = (y 0).val; rw [(idx_rows t).2.2.2.2.1.1]; omega
  | ⟨1, _⟩ => show win1_4.index t 1 * 512 + 1 * (y 1).val = (y 1).val; rw [(idx_rows t).2.2.2.2.1.2]; omega

/-- The state block at `(a, q)` is the state at row `512 t + a`. -/
theorem blk_state (c : Dev nD) (t : Fin cfg1.N) (a q : Fin 512) :
    (iblk1 V c 0 t : Vec Ideal S512x512 .f32) (ix2 a q) = (V c main_arg1 : S4096x512.Idx → EReal) (ix2 (row t a) q) := by
  unfold iblk1
  rw [View.read_apply]
  show V c main_arg1 _ = V c main_arg1 _
  congr 1
  funext d
  apply Fin.ext
  match d with
  | ⟨0, _⟩ => show win1_0.index t 0 * 512 + 1 * a.val = t.val * 512 + a.val; rw [(idx_rows t).1.1]; omega
  | ⟨1, _⟩ => show win1_0.index t 1 * 512 + 1 * q.val = q.val; rw [(idx_rows t).1.2]; omega

/-- The `J` block at `(a, l)` is `J` at row `512 t + a`. -/
theorem blk_J (c : Dev nD) (t : Fin cfg1.N) (a : Fin 512) (l : Fin 4096) :
    (iblk1 V c 2 t : Vec Ideal S512x4096 .f32) (ix2 a l) = (V c main_arg3 : S4096x4096.Idx → EReal) (ix2 (row t a) l) := by
  unfold iblk1
  rw [View.read_apply]
  show V c main_arg3 _ = V c main_arg3 _
  congr 1
  funext d
  apply Fin.ext
  match d with
  | ⟨0, _⟩ => show win1_2.index t 0 * 512 + 1 * a.val = t.val * 512 + a.val; rw [(idx_rows t).2.2.1.1]; omega
  | ⟨1, _⟩ => show win1_2.index t 1 * 4096 + 1 * l.val = l.val; rw [(idx_rows t).2.2.1.2]; omega

/-- The `U` block at `(a, k)` is `U` at row `512 t + a`. -/
theorem blk_U (c : Dev nD) (t : Fin cfg1.N) (a : Fin 512) (k : Fin 64) :
    (iblk1 V c 3 t : Vec Ideal S512x64 .f32) (ix2 a k) = (V c main_arg5 : S4096x64.Idx → EReal) (ix2 (row t a) k) := by
  unfold iblk1
  rw [View.read_apply]
  show V c main_arg5 _ = V c main_arg5 _
  congr 1
  funext d
  apply Fin.ext
  match d with
  | ⟨0, _⟩ => show win1_3.index t 0 * 512 + 1 * a.val = t.val * 512 + a.val; rw [(idx_rows t).2.2.2.1.1]; omega
  | ⟨1, _⟩ => show win1_3.index t 1 * 64 + 1 * k.val = k.val; rw [(idx_rows t).2.2.2.1.2]; omega

/-- The bias block at `(a, 0)` is the bias at row `512 t + a`. -/
theorem blk_bias (c : Dev nD) (t : Fin cfg1.N) (a : Fin 512) :
    (iblk1 V c 5 t : Vec Ideal S512x1 .f32) (ix2 a (0 : Fin 1)) = (V c main_arg4 : S4096x1.Idx → EReal) (ix2 (row t a) (0 : Fin 1)) := by
  unfold iblk1
  rw [View.read_apply]
  show V c main_arg4 _ = V c main_arg4 _
  congr 1
  funext d
  apply Fin.ext
  match d with
  | ⟨0, _⟩ => show win1_5.index t 0 * 512 + 1 * a.val = t.val * 512 + a.val; rw [(idx_rows t).2.2.2.2.2.1.1]; omega
  | ⟨1, _⟩ => show win1_5.index t 1 * 1 + 1 * (0 : Fin 1).val = (0 : Fin 1).val; rw [(idx_rows t).2.2.2.2.2.1.2]; rfl

/-- The update body's new-state block, when its row-blocked inputs are rows `ρ a` of arrays `X`, `J`, `U`, `B`:
    entry `j` is the leaky step of those arrays (and of the two whole inputs) at row `ρ (j 0)`. -/
theorem step_block (x0 : Vec Ideal S512x512 .f32) (x1 : Vec Ideal S4096x512 .bf16) (x2 : Vec Ideal S512x4096 .f32)
    (x3 : Vec Ideal S512x64 .f32) (x4 : Vec Ideal S64x512 .bf16) (x5 : Vec Ideal S512x1 .f32)
    (X : Mat 4096 512) (J : Mat 4096 4096) (U : Mat 4096 64) (B : Mat 4096 1) (ρ : Fin 512 → Fin 4096)
    (hx : ∀ a q, x0 (ix2 a q) = X (ix2 (ρ a) q)) (hJ : ∀ a l, x2 (ix2 a l) = J (ix2 (ρ a) l))
    (hU : ∀ a k, x3 (ix2 a k) = U (ix2 (ρ a) k)) (hB : ∀ a, x5 (ix2 a (0 : Fin 1)) = B (ix2 (ρ a) (0 : Fin 1)))
    (j : S512x512.Idx) :
    k1_pay1 (F := Ideal) x1 x2 x3 x4 x0 x5 j = step X x1 J U x4 B (ix2 (ρ (j 0)) (j 1)) := by
  obtain ⟨a, q, rfl⟩ : ∃ (a : Fin 512) (q : Fin 512), j = ix2 a q := ⟨j 0, j 1, eq_ix2 j⟩
  have h1 : mm x2 x1 a q = mm J x1 (ρ a) q := Finset.sum_congr rfl fun l _ => by rw [hJ a l]
  have h2 : mm x3 x4 a q = mm U x4 (ρ a) q := Finset.sum_congr rfl fun k _ => by rw [hU a k]
  exact (step_apply x1 x2 x3 x4 x0 x5 a q).trans
    (congr (congr (congrArg leak (hx a q)) (congrArg₂ (· + ·) h1 h2)) (hB a))

/-- What point `t` writes back to the first output: rows `512 t …` of the leaky step of what the region found. -/
theorem flushed_state (c : Dev nD) (t : Fin cfg1.N) :
    (dat1 V c).flushed 6 t = ((cfg1.win 6).blk t).view.read (Elt Ideal)
      (step (V c main_arg1) (V c main_v0_1) (V c main_arg3) (V c main_arg5) (V c main_v0_0) (V c main_arg4)) := by
  show (cfg1.win 6).cut (grid1.coords t) ((dat1 V c).after 6 t) = _
  rw [after1_6]
  unfold out1_6
  rw [View.canon_unit_zero hz]
  simp only [View.ld_unit_zero (S := S4096x512) hz, View.ld_unit_zero (S := S512x4096) hz, View.ld_unit_zero (S := S512x64) hz,
    View.ld_unit_zero (S := S64x512) hz, View.ld_unit_zero (S := S512x512) hz, View.ld_unit_zero (S := S512x1) hz]
  rw [blk_rates V c t, blk_proj V c t]
  funext j
  show k1_pay1 (F := Ideal) (V c main_v0_1) (iblk1 V c 2 t) (iblk1 V c 3 t) (V c main_v0_0) (iblk1 V c 0 t) (iblk1 V c 5 t) j
    = step (V c main_arg1) (V c main_v0_1) (V c main_arg3) (V c main_arg5) (V c main_v0_0) (V c main_arg4)
        (((cfg1.win 6).blk t).view.emb j)
  refine (step_block _ _ _ _ _ _ (V c main_arg1) (V c main_arg3) (V c main_arg5) (V c main_arg4) (row t)
    (blk_state V c t) (blk_J V c t) (blk_U V c t) (blk_bias V c t) j).trans (congrArg _ ?_)
  funext d
  apply Fin.ext
  match d with
  | ⟨0, _⟩ => show t.val * 512 + (j 0).val = win1_6.index t 0 * 512 + 1 * (j 0).val; rw [(idx_rows t).2.2.2.2.2.2.1.1]; omega
  | ⟨1, _⟩ => show (j 1).val = win1_6.index t 1 * 512 + 1 * (j 1).val; rw [(idx_rows t).2.2.2.2.2.2.1.2]; omega

/-- What point `t` writes back to the second output: rows `512 t …` of the softplus of that step. -/
theorem flushed_rates (c : Dev nD) (t : Fin cfg1.N) :
    (dat1 V c).flushed 7 t = ((cfg1.win 7).blk t).view.read (Elt Ideal)
      (fun i => softplus (step (V c main_arg1) (V c main_v0_1) (V c main_arg3) (V c main_arg5) (V c main_v0_0) (V c main_arg4) i)) := by
  show (cfg1.win 7).cut (grid1.coords t) ((dat1 V c).after 7 t) = _
  rw [after1_7]
  unfold out1_7
  rw [View.canon_unit_zero hz]
  simp only [View.ld_unit_zero (S := S4096x512) hz, View.ld_unit_zero (S := S512x4096) hz, View.ld_unit_zero (S := S512x64) hz,
    View.ld_unit_zero (S := S64x512) hz, View.ld_unit_zero (S := S512x512) hz, View.ld_unit_zero (S := S512x1) hz]
  rw [blk_rates V c t, blk_proj V c t]
  funext j
  show k1_pay2 (F := Ideal) (V c main_v0_1) (iblk1 V c 2 t) (iblk1 V c 3 t) (V c main_v0_0) (iblk1 V c 0 t) (iblk1 V c 5 t) j
    = softplus (step (V c main_arg1) (V c main_v0_1) (V c main_arg3) (V c main_arg5) (V c main_v0_0) (V c main_arg4)
        (((cfg1.win 7).blk t).view.emb j))
  refine (rate_apply _ _ _ _ _ _ j).trans (congrArg softplus ?_)
  refine (step_block _ _ _ _ _ _ (V c main_arg1) (V c main_arg3) (V c main_arg5) (V c main_arg4) (row t)
    (blk_state V c t) (blk_J V c t) (blk_U V c t) (blk_bias V c t) j).trans (congrArg _ ?_)
  funext d
  apply Fin.ext
  match d with
  | ⟨0, _⟩ => show t.val * 512 + (j 0).val = win1_7.index t 0 * 512 + 1 * (j 0).val; rw [(idx_rows t).2.2.2.2.2.2.2.1]; omega
  | ⟨1, _⟩ => show (j 1).val = win1_7.index t 1 * 512 + 1 * (j 1).val; rw [(idx_rows t).2.2.2.2.2.2.2.2]; omega

/-- The point whose row block holds row `p`. -/
def pointOf (p : Fin 4096) : Fin cfg1.N := ⟨p.val / 512, by rw [show cfg1.N = 8 from N_1]; have := p.isLt; omega⟩

/-- After the region the first output holds the leaky step of what the region found. -/
theorem final_state (c : Dev nD) :
    (dat1 V c).arrAt 6 cfg1.N
      = step (V c main_arg1) (V c main_v0_1) (V c main_arg3) (V c main_arg5) (V c main_v0_0) (V c main_arg4) :=
  (dat1 V c).arrAt_eq_of_cover 6 _ (fun t _ => flushed_state V c t) fun i =>
    ⟨pointOf (i 0), flush1_6 _, by
      show i ∈ ((View.whole main_v1_0).slice (win1_6.rect (pointOf (i 0)))).set
      rw [View.set_slice_whole, Rect.mem_set_unit]
      intro a
      have h0 : (i 0 : Nat) < 4096 := (i 0).isLt
      have h1 : (i 1 : Nat) < 512 := (i 1).isLt
      have hp : (pointOf (i 0)).val = (i 0 : Nat) / 512 := rfl
      match a with
      | ⟨0, _⟩ => show win1_6.index (pointOf (i 0)) 0 * 512 ≤ (i 0 : Nat) ∧ (i 0 : Nat) < win1_6.index (pointOf (i 0)) 0 * 512 + 512
                  rw [(idx_rows (pointOf (i 0))).2.2.2.2.2.2.1.1, hp]; omega
      | ⟨1, _⟩ => show win1_6.index (pointOf (i 0)) 1 * 512 ≤ (i 1 : Nat) ∧ (i 1 : Nat) < win1_6.index (pointOf (i 0)) 1 * 512 + 512
                  rw [(idx_rows (pointOf (i 0))).2.2.2.2.2.2.1.2]; omega⟩

/-- After the region the second output holds the softplus of that step. -/
theorem final_rates (c : Dev nD) :
    (dat1 V c).arrAt 7 cfg1.N
      = fun i => softplus (step (V c main_arg1) (V c main_v0_1) (V c main_arg3) (V c main_arg5) (V c main_v0_0) (V c main_arg4) i) :=
  (dat1 V c).arrAt_eq_of_cover 7 _ (fun t _ => flushed_rates V c t) fun i =>
    ⟨pointOf (i 0), flush1_7 _, by
      show i ∈ ((View.whole main_v1_1).slice (win1_7.rect (pointOf (i 0)))).set
      rw [View.set_slice_whole, Rect.mem_set_unit]
      intro a
      have h0 : (i 0 : Nat) < 4096 := (i 0).isLt
      have h1 : (i 1 : Nat) < 512 := (i 1).isLt
      have hp : (pointOf (i 0)).val = (i 0 : Nat) / 512 := rfl
      match a with
      | ⟨0, _⟩ => show win1_7.index (pointOf (i 0)) 0 * 512 ≤ (i 0 : Nat) ∧ (i 0 : Nat) < win1_7.index (pointOf (i 0)) 0 * 512 + 512
                  rw [(idx_rows (pointOf (i 0))).2.2.2.2.2.2.2.1, hp]; omega
      | ⟨1, _⟩ => show win1_7.index (pointOf (i 0)) 1 * 512 ≤ (i 1 : Nat) ∧ (i 1 : Nat) < win1_7.index (pointOf (i 0)) 1 * 512 + 512
                  rw [(idx_rows (pointOf (i 0))).2.2.2.2.2.2.2.2]; omega⟩

end Cert.KernelIdeal.Region1

end
-- ==== Proof.Bridge.lean ====
/-
  The two result buffers at the last boundary, as functions of the launch memory.

  The update region finds the four argument arrays it reads (`x`, `J`, `U`, `B`) as launched: nothing before it
  writes them. It finds the copied rates at what the projection region left there, which is `r` as launched, and
  the scaled projection at `rt ⊙ (V r)` of the launched `rt`, `V`, `r`. So its outputs end at the new state and the
  new rates of the specification.
-/
import proofs.«109126_j9560597201160_2_alg».proof.Proof.ValueRun
import proofs.«109126_j9560597201160_2_alg».proof.Proof.Region0
import proofs.«109126_j9560597201160_2_alg».proof.Proof.Region1

set_option maxRecDepth 16384

noncomputable section

namespace Cert.KernelIdeal.Bridge

open Cert.KernelIdeal Cert.KernelIdeal.Gen Cert.Thalamic
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-! What the update region finds. -/

theorem found_state (c : Dev nD) : V1 m ρ c main_arg1 = m ((c.tc : Thread nD τ).loc main_arg1) :=
  W1_of_ne m ρ c main_arg1 (by decide)
theorem found_J (c : Dev nD) : V1 m ρ c main_arg3 = m ((c.tc : Thread nD τ).loc main_arg3) :=
  W1_of_ne m ρ c main_arg3 (by decide)
theorem found_U (c : Dev nD) : V1 m ρ c main_arg5 = m ((c.tc : Thread nD τ).loc main_arg5) :=
  W1_of_ne m ρ c main_arg5 (by decide)
theorem found_bias (c : Dev nD) : V1 m ρ c main_arg4 = m ((c.tc : Thread nD τ).loc main_arg4) :=
  W1_of_ne m ρ c main_arg4 (by decide)
theorem found_rates (c : Dev nD) :
    (V1 m ρ c main_v0_1 : S4096x512.Idx → EReal) = m ((c.tc : Thread nD τ).loc main_arg2) :=
  (W1_arr m ρ c 4).trans (Region0.final_rate (V0 m ρ) c)
theorem found_proj (c : Dev nD) :
    (V1 m ρ c main_v0_0 : S64x512.Idx → EReal)
      = proj (m ((c.tc : Thread nD τ).loc main_arg0)) (m ((c.tc : Thread nD τ).loc main_arg6)) (m ((c.tc : Thread nD τ).loc main_arg2)) :=
  (W1_arr m ρ c 3).trans (Region0.final_proj (V0 m ρ) c)

/-- The first result buffer ends at the new state. -/
theorem result_state (c : Dev nD) :
    (W2 m ρ c (Proc.devRef .tc main_v1_0) : S4096x512.Idx → EReal)
      = xnew (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) := by
  refine (W2_arr m ρ c 6).trans ((Region1.final_state (V1 m ρ) c).trans ?_)
  rw [found_state m ρ c, found_J m ρ c, found_U m ρ c, found_bias m ρ c, found_rates m ρ c, found_proj m ρ c]
  rfl

/-- The second result buffer ends at the new rates. -/
theorem result_rates (c : Dev nD) :
    (W2 m ρ c (Proc.devRef .tc main_v1_1) : S4096x512.Idx → EReal)
      = rnew (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) := by
  refine (W2_arr m ρ c 7).trans ((Region1.final_rates (V1 m ρ) c).trans ?_)
  rw [found_state m ρ c, found_J m ρ c, found_U m ρ c, found_bias m ρ c, found_rates m ρ c, found_proj m ρ c]
  rfl

end Cert.KernelIdeal.Bridge

end
-- ==== Proof.RefRead.lean ====
/-
  The reference's two results are the new state and the new rates of the specification.

  The reference computes `U (rt ⊙ (V r)) + J r` with three whole-matrix products, adds `−x` and the bias column
  repeated along each row, scales by the binary32 third and adds `x`; then applies the softplus in the host's
  spelling. Read at an entry `(p, q)` through the stage-by-stage lemmas, each product is the sum over the shared
  axis; the only difference from the specification is the order of the two summands of the recurrent input.
-/
import proofs.«109126_j9560597201160_2_alg».proof.Proof.Gen.ReferenceIdeal.Read
import proofs.«109126_j9560597201160_2_alg».proof.Proof.Spec

noncomputable section

namespace Cert.ReferenceIdeal.RefValue

open Cert.ReferenceIdeal Cert.ReferenceIdeal.Read Cert.Thalamic
open Idealize.ShloMosaic Idealize.ShloMosaic.ValueIdx
open scoped BigOperators

/-! The stage lemmas' index functions at `(p, q)`, as pairs of coordinates. -/

theorem lidx_U (p : Fin 4096) (q : Fin 512) (k : Fin 64) : lidx_main_v2 (ix2 p q) k = ix2 p k :=
  funext fun a => Fin.ext (by match a with | ⟨0, _⟩ => rfl | ⟨1, _⟩ => rfl)
theorem ridx_U (p : Fin 4096) (q : Fin 512) (k : Fin 64) : ridx_main_v2 (ix2 p q) k = ix2 k q :=
  funext fun a => Fin.ext (by match a with | ⟨0, _⟩ => rfl | ⟨1, _⟩ => rfl)
theorem lidx_V (j : Fin 64) (q : Fin 512) (l : Fin 4096) : lidx_main_v0 (ix2 j q) l = ix2 j l :=
  funext fun a => Fin.ext (by match a with | ⟨0, _⟩ => rfl | ⟨1, _⟩ => rfl)
theorem ridx_V (j : Fin 64) (q : Fin 512) (l : Fin 4096) : ridx_main_v0 (ix2 j q) l = ix2 l q :=
  funext fun a => Fin.ext (by match a with | ⟨0, _⟩ => rfl | ⟨1, _⟩ => rfl)
theorem lidx_J (p : Fin 4096) (q : Fin 512) (l : Fin 4096) : lidx_main_v3 (ix2 p q) l = ix2 p l :=
  funext fun a => Fin.ext (by match a with | ⟨0, _⟩ => rfl | ⟨1, _⟩ => rfl)
theorem ridx_J (p : Fin 4096) (q : Fin 512) (l : Fin 4096) : ridx_main_v3 (ix2 p q) l = ix2 l q :=
  funext fun a => Fin.ext (by match a with | ⟨0, _⟩ => rfl | ⟨1, _⟩ => rfl)
theorem idx_B (p : Fin 4096) (q : Fin 512) : idx_main_v7 (ix2 p q) = ix2 p (0 : Fin 1) :=
  funext fun a => Fin.ext (by match a with | ⟨0, _⟩ => rfl | ⟨1, _⟩ => rfl)

/-- The reference's first result is the new state. -/
theorem state_eq (x0 : Mat 64 512) (x1 x2 : Mat 4096 512) (x3 : Mat 4096 4096) (x4 : Mat 4096 1) (x5 : Mat 4096 64)
    (x6 : Mat 64 4096) :
    val_main_v11 (F := Ideal) x0 x1 x2 x3 x4 x5 x6 = xnew x0 x1 x2 x3 x4 x5 x6 := by
  funext i
  obtain ⟨p, q, rfl⟩ : ∃ (p : Fin 4096) (q : Fin 512), i = ix2 p q := ⟨i 0, i 1, eq_ix2 i⟩
  rw [val_main_v11_apply, val_main_v10_apply, val_main_v9_apply, val_main_cst_apply, val_main_v8_apply,
    val_main_v6_apply, val_main_v5_apply, val_main_v4_apply, val_main_v2_apply, val_main_v3_apply, val_main_v7_apply,
    xnew_apply]
  simp only [val_main_v1_apply, val_main_v0_apply, lidx_U, ridx_U, lidx_V, ridx_V, lidx_J, ridx_J, idx_B,
    Ideal.addf_def, Ideal.mulf_def, Ideal.hostNegf_def, Ideal.negf_def, Ideal.ofBits_def]
  unfold third
  rw [add_comm (∑ l : Fin 4096, x3 (ix2 p l) * x2 (ix2 l q))]

/-- The reference's second result is the new rates. -/
theorem rate_eq (x0 : Mat 64 512) (x1 x2 : Mat 4096 512) (x3 : Mat 4096 4096) (x4 : Mat 4096 1) (x5 : Mat 4096 64)
    (x6 : Mat 64 4096) :
    val_main_v12 (F := Ideal) x0 x1 x2 x3 x4 x5 x6 = rnew x0 x1 x2 x3 x4 x5 x6 := by
  funext i
  rw [val_main_v12_apply, val_main_call0_v4_apply, val_main_call0_v6_apply, val_main_call0_v11_apply,
    val_main_call0_v1_apply, val_main_call0_v10_apply, val_main_call0_v9_apply, val_main_call0_v8_apply,
    val_main_call0_v7_apply, val_main_call0_v3_apply, val_main_call0_v0_apply, val_main_call0_v2_apply,
    val_main_call0_v5_apply, val_main_call0_cst_apply, state_eq]
  exact softplus_host_form _

end Cert.ReferenceIdeal.RefValue

end
-- ==== Proof.lean ====
/-
  The thalamic network step: the two-kernel program against its plain reference, over the extended reals.

  Both programs return the new state `x' = x + c · ((−x + (J r + U (rt ⊙ (V r)))) + B)` and the new rates
  `softplus x'`. The kernel program computes the scaled projection `rt ⊙ (V r)` in a first region, which also hands
  `r` on, and the step row block by row block in a second; the reference computes everything with whole-matrix
  operations. Entry by entry the two are the same sums and products of the same entries: the recurrent input's two
  summands are added in the other order, the kernel spells `−x` as `0 − x`, and the two "not equal to itself"
  guards of the softplus are both false of every extended real. No entry needs to be finite, so the precondition
  is not opened.

  The three frames: the two kernel programs' are the launch over their two regions; the reference's is its run
  with the results dropped. The idealization rewrote nothing, so there is nothing to preserve.
-/
import proofs.«109126_j9560597201160_2_alg».proof.Defs
import proofs.«109126_j9560597201160_2_alg».proof.Proof.Gen.Kernel
import proofs.«109126_j9560597201160_2_alg».proof.Proof.Gen.Kernel.Skeleton
import proofs.«109126_j9560597201160_2_alg».proof.Proof.Gen.Kernel.Launch
import proofs.«109126_j9560597201160_2_alg».proof.Proof.Gen.Kernel.Points
import proofs.«109126_j9560597201160_2_alg».proof.Proof.Gen.Kernel.Frame
import proofs.«109126_j9560597201160_2_alg».proof.Proof.Gen.KernelIdeal
import proofs.«109126_j9560597201160_2_alg».proof.Proof.Gen.KernelIdeal.Skeleton
import proofs.«109126_j9560597201160_2_alg».proof.Proof.Gen.KernelIdeal.Launch
import proofs.«109126_j9560597201160_2_alg».proof.Proof.Gen.KernelIdeal.Points
import proofs.«109126_j9560597201160_2_alg».proof.Proof.Gen.KernelIdeal.Frame
import proofs.«109126_j9560597201160_2_alg».proof.Proof.Gen.ReferenceIdeal
import proofs.«109126_j9560597201160_2_alg».proof.Proof.Gen.ReferenceIdeal.Run
import proofs.«109126_j9560597201160_2_alg».proof.Proof.Gen.ReferenceIdeal.Read
import proofs.«109126_j9560597201160_2_alg».proof.Proof.Gen.Pre_finite_inputs
import proofs.«109126_j9560597201160_2_alg».proof.Proof.Bridge
import proofs.«109126_j9560597201160_2_alg».proof.Proof.RefRead
import Idealize.ShloMosaic.Adequacy
import Idealize.ShloMosaic.Init

noncomputable section

namespace Cert.Proof

open Idealize.ShloMosaic Idealize.SL.Sem Cert.Thalamic

theorem frame_kernel : Cert.frame_Kernel := fun m ρ _ => Cert.Kernel.Gen.frame m ρ

theorem frame_kernel_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2.2) (Cert.ReferenceIdeal.Value.run (F := Ideal) m ρ)

/-- From memories agreeing on the seven arguments both programs end with the new state in their first result and
    the new rates in their second. -/
theorem algebraic : Cert.algebraic_KernelIdeal_ReferenceIdeal := by
  intro m ρ m' ρ' _ hagree
  refine ⟨fun c => xnew (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c => rnew (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.Bridge.result_state m ρ c),
        (h c).2.1.trans (Cert.KernelIdeal.Bridge.result_rates m ρ c), (h c).2.2⟩)
      (Cert.KernelIdeal.RunValue.run (F := Ideal) m ρ)
  · refine (θ_run Cert.ReferenceIdeal.defs _ _).mono (fun r h c => ?_) (Cert.ReferenceIdeal.Value.run (F := Ideal) m' ρ')
    obtain ⟨e0, e1, e2, e3, e4, e5, e6⟩ := hagree c
    refine ⟨(h c).1.trans ?_, (h c).2.1.trans ?_, (h c).2.2⟩
    · rw [e0, e1, e2, e3, e4, e5, e6]
      exact (Cert.ReferenceIdeal.Read.val_main_v11_eq _ _ _ _ _ _ _).trans (Cert.ReferenceIdeal.RefValue.state_eq _ _ _ _ _ _ _)
    · rw [Cert.ReferenceIdeal.Read.val_main_v12_eq, e0, e1, e2, e3, e4, e5, e6]
      exact Cert.ReferenceIdeal.RefValue.rate_eq _ _ _ _ _ _ _

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
